-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S4000x1 : Shape := ⟨2, ![4000, 1]⟩

abbrev nBuf : Space → Nat
  | .hbm => 37
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S1x128, .f32⟩
  | .hbm, ⟨36, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_1_0_0_n_n_wf : DotDims.WF S4000x128 S128x128 S4000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MeanLinear.lean ====
/-
  The layer both programs compute, as one function of the arrays it is built from, and the one law that joins
  the two arrangements.

  Write `a` for the per-node sums of neighbour features ([100000, 128]), `d` for the per-node divisor
  ([100000]; in both programs the in-degree clamped below by one), `x` for the node features, `Wl`, `Wr` for the
  two weight matrices ([128, 128], used transposed) and `b` for the bias. The layer is

      out r q = (∑ k, (a r k / d r) · Wl q k  +  b q)  +  ∑ k, x r k · Wr q k .

  One program divides every entry of `a` by `d r`; the other forms the reciprocal `1 / d r` once per node,
  multiplies every entry of `a` by it, and adds the bias last. On the extended reals the quotient by a divisor that is
  not zero is the product with the divisor's inverse, so `a · (1 / d) = a · (1 · d⁻¹) = a · d⁻¹ = a / d` at every
  `a`, finite or not; and `(s + t) + b = (s + b) + t` in any commutative additive monoid. The divisor is a maximum
  against one, which is at least one and so never zero — whatever the degree is. No finiteness of any input is used.
-/
import Idealize.ShloMosaic.PureOps.Ideal
import Idealize.ShloMosaic.PureOps.Ideal.Laws
import Idealize.ShloMosaic.Lib.ValueIdx

noncomputable section

open scoped BigOperators

namespace Cert.MeanLinear

open Idealize.ShloMosaic Idealize.ShloMosaic.ValueIdx

/-- The f32 word of 1.0 is the extended real one. -/
theorem one_word : Ideal.ofBits .f32 0x3F800000#32 = (1 : EReal) := by
  simp [Ideal.ofBits, Ideal.ieee, -EReal.coe_mul]; norm_num

/-- A maximum against one is at least one, so it is not zero. -/
theorem max_one_ne_zero (x : EReal) : max x 1 ≠ 0 :=
  ne_of_gt (lt_of_lt_of_le zero_lt_one (le_max_right x 1))

/-- Off a zero divisor, the product with the reciprocal is the quotient, at every dividend. -/
theorem mul_one_div {d : EReal} (hd : d ≠ 0) (a : EReal) : a * Ideal.div 1 d = Ideal.div a d := by
  unfold Ideal.div
  rw [if_neg hd, if_neg hd, one_mul]

/-- The layer: the neighbour sums divided by the node's divisor, through the first matrix, plus the bias, plus the
    node's own features through the second matrix. -/
def layer (a x : (⟨2, ![100000, 128]⟩ : Shape).Idx → EReal) (d : (⟨1, ![100000]⟩ : Shape).Idx → EReal)
    (Wl Wr : (⟨2, ![128, 128]⟩ : Shape).Idx → EReal) (b : (⟨1, ![128]⟩ : Shape).Idx → EReal) :
    (⟨2, ![100000, 128]⟩ : Shape).Idx → EReal := fun i =>
  (∑ k : Fin 128, Ideal.div (a (ix2 (i 0) k)) (d (ix1 (i 0))) * Wl (ix2 (i 1) k) + b (ix1 (i 1)))
    + ∑ k : Fin 128, x (ix2 (i 0) k) * Wr (ix2 (i 1) k)

/-- The layer at row `r`, column `q`, spelled over the coordinates. -/
theorem layer_apply (a x : (⟨2, ![100000, 128]⟩ : Shape).Idx → EReal) (d : (⟨1, ![100000]⟩ : Shape).Idx → EReal)
    (Wl Wr : (⟨2, ![128, 128]⟩ : Shape).Idx → EReal) (b : (⟨1, ![128]⟩ : Shape).Idx → EReal)
    (r : Fin 100000) (q : Fin 128) :
    layer a x d Wl Wr b (ix2 r q)
      = (∑ k : Fin 128, Ideal.div (a (ix2 r k)) (d (ix1 r)) * Wl (ix2 q k) + b (ix1 q))
        + ∑ k : Fin 128, x (ix2 r k) * Wr (ix2 q k) := rfl

/-- The other arrangement — every neighbour sum times the node's reciprocal divisor, the two matrix products added
    first and the bias last — is the layer, wherever no divisor is zero. -/
theorem reciprocal_form (a x : (⟨2, ![100000, 128]⟩ : Shape).Idx → EReal) (d : (⟨1, ![100000]⟩ : Shape).Idx → EReal)
    (Wl Wr : (⟨2, ![128, 128]⟩ : Shape).Idx → EReal) (b : (⟨1, ![128]⟩ : Shape).Idx → EReal)
    (hd : ∀ r, d r ≠ 0) (r : Fin 100000) (q : Fin 128) :
    (∑ k : Fin 128, (a (ix2 r k) * Ideal.div 1 (d (ix1 r))) * Wl (ix2 q k) + ∑ k : Fin 128, x (ix2 r k) * Wr (ix2 q k))
        + b (ix1 q)
      = layer a x d Wl Wr b (ix2 r q) := by
  rw [layer_apply]
  simp only [mul_one_div (hd (ix1 r))]
  exact add_right_comm _ _ _

end Cert.MeanLinear

end
-- ==== Proof.ReferenceLayer.lean ====
/-
  The reference program's result is the layer of `MeanLinear`, index by index.

  Read at row `r`, column `q`, the reference's last sum is: the contraction over `k` of the neighbour sums at
  `(r, k)` divided by the clamped degree of node `r` (a column broadcast along the row) against the first weight
  matrix transposed, read at `(k, q)`, which is the matrix itself at `(q, k)`; plus the bias at `q` (a row
  broadcast down the column); plus the contraction of the features at `(r, k)` against the second matrix at
  `(q, k)`. The neighbour sums and the clamped degree are kept as the two stages that compute them and are never
  opened: the layer takes them as arrays.
-/
import proofs.«177822_j79937931313499_2_alg».proof.Proof.Gen.ReferenceIdeal.Read
import proofs.«177822_j79937931313499_2_alg».proof.Proof.MeanLinear

noncomputable section

open scoped BigOperators

namespace Cert.ReferenceIdeal.Layer

open Cert.ReferenceIdeal Cert.ReferenceIdeal.Read Idealize.ShloMosaic Idealize.ShloMosaic.ValueIdx

/-- The reference's result is the layer of its own neighbour sums and clamped degrees, the features, the two weight
    matrices and the bias. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4
      = Cert.MeanLinear.layer (val_main_v13 (F := Ideal) x0 x1) x0 (val_main_v19 (F := Ideal) x1) x2 x4 x3 := by
  funext i
  obtain ⟨r, q, rfl⟩ : ∃ (r : Fin 100000) (q : Fin 128), i = ix2 r q := ⟨i 0, i 1, eq_ix2 i⟩
  -- the composed index maps of the stages, as coordinates
  have hl : ∀ k : Fin 128, lidx_main_v24 (ix2 r q) k = ix2 r k := fun k =>
    funext fun a => Fin.ext (by match a with | ⟨0, _⟩ => rfl | ⟨1, _⟩ => rfl)
  have hd : ∀ k : Fin 128, idx_main_v20 (idx_main_v21 (ix2 r k)) = ix1 r := fun k =>
    funext fun a => Fin.ext (by match a with | ⟨0, _⟩ => rfl)
  have hw : ∀ k : Fin 128, idx_main_v23 (ridx_main_v24 (ix2 r q) k) = ix2 q k := fun k =>
    funext fun a => Fin.ext (by match a with | ⟨0, _⟩ => rfl | ⟨1, _⟩ => rfl)
  have hb : idx_main_v25 (idx_main_v26 (ix2 r q)) = ix1 q :=
    funext fun a => Fin.ext (by match a with | ⟨0, _⟩ => rfl)
  have hl' : ∀ k : Fin 128, lidx_main_v29 (ix2 r q) k = ix2 r k := fun k =>
    funext fun a => Fin.ext (by match a with | ⟨0, _⟩ => rfl | ⟨1, _⟩ => rfl)
  have hw' : ∀ k : Fin 128, idx_main_v28 (ridx_main_v29 (ix2 r q) k) = ix2 q k := fun k =>
    funext fun a => Fin.ext (by match a with | ⟨0, _⟩ => rfl | ⟨1, _⟩ => rfl)
  rw [Cert.MeanLinear.layer_apply, val_main_v30_apply, val_main_v27_apply, val_main_v24_apply, val_main_v29_apply,
    val_main_v26_apply, val_main_v25_apply, hb]
  -- one term of each contraction, read through the stages
  have s1 : ∀ k : Fin 128,
      val_main_v22 (F := Ideal) x0 x1 (lidx_main_v24 (ix2 r q) k) * val_main_v23 (F := Ideal) x2 (ridx_main_v24 (ix2 r q) k)
        = Ideal.div (val_main_v13 (F := Ideal) x0 x1 (ix2 r k)) (val_main_v19 (F := Ideal) x1 (ix1 r)) * x2 (ix2 q k) := fun k => by
    rw [val_main_v23_apply, hw k, val_main_v22_apply, hl k, val_main_v21_apply, val_main_v20_apply, hd k, Ideal.hostDivf_def]
  have s2 : ∀ k : Fin 128,
      x0 (lidx_main_v29 (ix2 r q) k) * val_main_v28 (F := Ideal) x4 (ridx_main_v29 (ix2 r q) k)
        = x0 (ix2 r k) * x4 (ix2 q k) := fun k => by
    rw [val_main_v28_apply, hw' k, hl' k]
  rw [Ideal.addf_def, Ideal.addf_def, Finset.sum_congr rfl (fun k _ => s1 k), Finset.sum_congr rfl (fun k _ => s2 k)]

/-- The clamped degree is a maximum against the f32 word of 1.0, so it is never zero, whatever the degree. -/
theorem clamped_ne_zero (x1 : (⟨S2x1600000, .i32⟩ : BufTy).Contents (Elt Ideal)) (i : S100000.Idx) :
    val_main_v19 (F := Ideal) x1 i ≠ 0 := by
  rw [val_main_v19_apply, val_main_v18_apply, val_main_cst_3_apply]
  generalize val_main_v17 (F := Ideal) x1 i = s
  show max s (Ideal.ofBits .f32 0x3F800000#32) ≠ 0
  rw [Cert.MeanLinear.one_word]
  exact Cert.MeanLinear.max_one_ne_zero s

end Cert.ReferenceIdeal.Layer

end
-- ==== Proof.BlockValue.lean ====
/-
  What the kernel body stores, at row `p` and column `q` of a block of 4000 rows.

  From the six blocks it loads — neighbour sums `a` ([4000, 128]), the reciprocal divisors `e` as a column
  ([4000, 1]), features `x` ([4000, 128]), the two weight matrices `Wl`, `Wr` ([128, 128]) and the bias as a row
  ([1, 128]) — the body forms `a · e` with the column broadcast along each row, contracts it and `x` against the
  two matrices along the SECOND axis of both operands (so no transpose is formed), adds the two products and then
  the bias row broadcast down the block:

      stored p q = (∑ k, (a p k · e p 0) · Wl q k  +  ∑ k, x p k · Wr q k)  +  b 0 q .

  The narrowing of the four matrix operands to bf16 is the identity on extended reals, and each matrix product
  accumulates into a zero block, so it is the plain sum.
-/
import proofs.«177822_j79937931313499_2_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.KernelIdeal.BlockValue

open Cert.KernelIdeal Cert.KernelIdeal.Gen Idealize.ShloMosaic Idealize.ShloMosaic.ValueIdx

/-- The left operand of the matrix product is read at the output's row and the contraction index … -/
theorem lhs_row (i : S4000x128.Idx) (k : dot_S4000x128_S128x128_S4000x128_1_1_0_0_n_n.contr.Idx) : (dot_S4000x128_S128x128_S4000x128_1_1_0_0_n_n.lhsIdx i k 0).val = (i 0).val := by
  unfold DotDims.lhsIdx
  rw [dif_neg (show ¬(0 : Fin S4000x128.rank) ∈ dot_S4000x128_S128x128_S4000x128_1_1_0_0_n_n.lhsBatch by decide),
    dif_pos (show (0 : Fin S4000x128.rank) ∈ dot_S4000x128_S128x128_S4000x128_1_1_0_0_n_n.lhsNonContracting by decide)]
  rfl

/-- … and the right operand at the output's COLUMN and the contraction index: its second axis is contracted. -/
theorem rhs_row (i : S4000x128.Idx) (k : dot_S4000x128_S128x128_S4000x128_1_1_0_0_n_n.contr.Idx) : (dot_S4000x128_S128x128_S4000x128_1_1_0_0_n_n.rhsIdx i k 0).val = (i 1).val := by
  unfold DotDims.rhsIdx
  rw [dif_neg (show ¬(0 : Fin S128x128.rank) ∈ dot_S4000x128_S128x128_S4000x128_1_1_0_0_n_n.rhsBatch by decide),
    dif_pos (show (0 : Fin S128x128.rank) ∈ dot_S4000x128_S128x128_S4000x128_1_1_0_0_n_n.rhsNonContracting by decide)]
  rfl

/-- A matrix product of this kernel into a zero block, at `(p, q)`: the sum over `k` of the left operand at
    `(p, k)` times the right operand at `(q, k)`. -/
theorem matmul_rows (lhs : FVec Ideal S4000x128 .bf16) (rhs : FVec Ideal S128x128 .bf16) (p : Fin 4000) (q : Fin 128) :
    FloatOps.matmul dot_S4000x128_S128x128_S4000x128_1_1_0_0_n_n none lhs rhs (constant (F := Ideal) S4000x128 .f32 0x00000000#32) (ix2 p q)
      = ∑ k : Fin 128, lhs (ix2 p k) * rhs (ix2 q k) := by
  rw [Ideal.matmul_constant_zero_apply, ← Equiv.sum_comp (contrEquiv1 dot_S4000x128_S128x128_S4000x128_1_1_0_0_n_n 128 rfl rfl).symm]
  refine Finset.sum_congr rfl fun k _ => ?_
  have hk := contrEquiv1_symm_val dot_S4000x128_S128x128_S4000x128_1_1_0_0_n_n 128 rfl rfl k
  have el : dot_S4000x128_S128x128_S4000x128_1_1_0_0_n_n.lhsIdx (ix2 p q) ((contrEquiv1 dot_S4000x128_S128x128_S4000x128_1_1_0_0_n_n 128 rfl rfl).symm k) = ix2 p k :=
    funext fun a => Fin.ext (by
      match a with
      | ⟨0, _⟩ => exact lhs_row _ _
      | ⟨1, _⟩ => exact (dot_S4000x128_S128x128_S4000x128_1_1_0_0_n_n.lhsIdx_val_of_single rfl _ _).trans hk)
  have er : dot_S4000x128_S128x128_S4000x128_1_1_0_0_n_n.rhsIdx (ix2 p q) ((contrEquiv1 dot_S4000x128_S128x128_S4000x128_1_1_0_0_n_n 128 rfl rfl).symm k) = ix2 q k :=
    funext fun a => Fin.ext (by
      match a with
      | ⟨0, _⟩ => exact rhs_row _ _
      | ⟨1, _⟩ => exact (dot_S4000x128_S128x128_S4000x128_1_1_0_0_n_n.rhsIdx_val_of_single rfl _ _).trans hk)
  rw [el, er]

/-- A column `[4000, 1]` broadcast along the rows, at `(p, k)`, is the column at `(p, 0)`. -/
theorem column_bcast (e : FVec Ideal S4000x1 .f32) (p : Fin 4000) (k : Fin 128) :
    broadcastTo S4000x128 e broadcasts_S4000x1_S4000x128 (ix2 p k) = e (ix2 p (0 : Fin 1)) :=
  broadcastTo_apply e broadcasts_S4000x1_S4000x128 (ix2 p k) (ix2 p (0 : Fin 1)) (fun a => by
    match a with
    | ⟨0, _⟩ => show p.val = if (4000 : Nat) = 1 then 0 else p.val; rw [if_neg (by decide)]
    | ⟨1, _⟩ => show 0 = if (1 : Nat) = 1 then 0 else k.val; rw [if_pos rfl])

/-- A row `[1, 128]` broadcast down the block, at `(p, q)`, is the row at `(0, q)`. -/
theorem row_bcast (b : FVec Ideal S1x128 .f32) (p : Fin 4000) (q : Fin 128) :
    broadcastTo S4000x128 b broadcasts_S1x128_S4000x128 (ix2 p q) = b (ix2 (0 : Fin 1) q) :=
  broadcastTo_apply b broadcasts_S1x128_S4000x128 (ix2 p q) (ix2 (0 : Fin 1) q) (fun a => by
    match a with
    | ⟨0, _⟩ => show 0 = if (1 : Nat) = 1 then 0 else p.val; rw [if_pos rfl]
    | ⟨1, _⟩ => show q.val = if (128 : Nat) = 1 then 0 else q.val; rw [if_neg (by decide)])

/-- THE STORED BLOCK at `(p, q)`, from the six loaded blocks. -/
theorem stored_apply (a : Vec Ideal S4000x128 .f32) (e : Vec Ideal S4000x1 .f32) (x : Vec Ideal S4000x128 .f32)
    (Wl Wr : Vec Ideal S128x128 .f32) (b : Vec Ideal S1x128 .f32) (p : Fin 4000) (q : Fin 128) :
    k0_pay1 (F := Ideal) a e x Wl Wr b (ix2 p q)
      = (∑ k : Fin 128, (a (ix2 p k) * e (ix2 p (0 : Fin 1))) * Wl (ix2 q k) + ∑ k : Fin 128, x (ix2 p k) * Wr (ix2 q k))
        + b (ix2 (0 : Fin 1) q) := by
  unfold k0_pay1
  simp only [shapeCast_self]
  show (FloatOps.matmul (F := Ideal) dot_S4000x128_S128x128_S4000x128_1_1_0_0_n_n none _ _ _ (ix2 p q) + FloatOps.matmul (F := Ideal) dot_S4000x128_S128x128_S4000x128_1_1_0_0_n_n none _ _ _ (ix2 p q))
      + broadcastTo S4000x128 b _ (ix2 p q) = _
  rw [matmul_rows, matmul_rows, row_bcast]
  refine congrArg (· + b (ix2 (0 : Fin 1) q)) (congrArg (· + _) (Finset.sum_congr rfl fun k _ => ?_))
  show (a (ix2 p k) * broadcastTo S4000x128 e broadcasts_S4000x1_S4000x128 (ix2 p k)) * Wl (ix2 q k) = _
  rw [column_bcast]

end Cert.KernelIdeal.BlockValue

end
-- ==== Proof.NodeArrays.lean ====
/-
  What the region finds in the three arrays the host operations write before it.

  The program first gathers the source features of every edge and sums them per destination node (the neighbour
  sums), counts the edges per destination node and clamps the count below by one, takes the reciprocal of the
  clamped count and lays it out as a column [100000, 1], and lays the bias out as a row [1, 128]. The gather, the two
  per-node sums and the clamp are, operation for operation, the ones the reference performs, so the neighbour sums
  and the clamped counts are stated as the reference's own two stages of the argument arrays and are not opened.
  Read at an index, the column holds `1 / d r` at `(r, 0)` (the numerator is the f32 word of 1.0, the extended
  real one) and the row holds the bias at `(0, q)`.
-/
import proofs.«177822_j79937931313499_2_alg».proof.Proof.Gen.KernelIdeal.Frame
import proofs.«177822_j79937931313499_2_alg».proof.Proof.Gen.ReferenceIdeal.Read
import proofs.«177822_j79937931313499_2_alg».proof.Proof.MeanLinear
import Idealize.ShloMosaic.Lib.StableHlo.Run
import Idealize.ShloMosaic.Lib.Pipeline.Value
import Idealize.ShloMosaic.Lib.ValueIdx

noncomputable section

namespace Cert.KernelIdeal.NodeArrays

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-! ## The arrays -/

/-- The reciprocal of a per-node divisor, as a column. -/
def recipColumn (d : S100000.Idx → EReal) : S100000x1.Idx → EReal :=
  broadcastInDim S100000x1 ![0] bcast_S100000_S100000x1_0
    (Host.divf (F := Ideal) (broadcastInDim S100000 ![] bcast_S_S100000 (constant (F := Ideal) S_ .f32 0x3F800000#32)) d)

/-- A vector of 128 entries as a row. -/
def biasRow (b : S128.Idx → EReal) : S1x128.Idx → EReal :=
  shapeCast S1x128 b shapeCasts_S128_S1x128

set_option maxHeartbeats 1000000 in
/-- The first window's array holds the neighbour sums: the reference's stage of the features and the edge list. -/
theorem V_sums (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [Gen.V, Gen.hostOps0]
  after_results_simp
  rfl

set_option maxHeartbeats 1000000 in
/-- The third window's array holds the reciprocals of the clamped counts (the reference's stage of the edge list), as a
    column. -/
theorem V_recip (c : Dev nD) :
    (V m c main_v22 : S100000x1.Idx → EReal)
      = recipColumn (Cert.ReferenceIdeal.Read.val_main_v19 (F := Ideal) (m ((c : Thread nD τ).loc main_arg1))) := by
  dsimp only [Gen.V, Gen.hostOps0]
  after_results_simp
  rfl

set_option maxHeartbeats 1000000 in
/-- The sixth window's array holds the bias as a row. -/
theorem V_bias (c : Dev nD) :
    (V m c main_v23 : S1x128.Idx → EReal) = biasRow (m ((c : Thread nD τ).loc main_arg3)) := by
  dsimp only [Gen.V, Gen.hostOps0]
  after_results_simp
  rfl

/-! ## Read at an index -/

/-- The column at `(r, 0)` is one over the divisor of node `r`. -/
theorem recipColumn_apply (d : S100000.Idx → EReal) (r : Fin 100000) (z : Fin 1) :
    recipColumn d (ix2 r z) = Ideal.div 1 (d (ix1 r)) := by
  unfold recipColumn
  rw [broadcastInDim_apply _ bcast_S100000_S100000x1_0 _ (ix2 r z) (ix1 r) (fun a => by
    match a with
    | ⟨0, _⟩ => show r.val = if (100000 : Nat) = 1 then 0 else r.val; rw [if_neg (by decide)])]
  show Ideal.div (broadcastInDim S100000 ![] bcast_S_S100000 (constant (F := Ideal) S_ .f32 0x3F800000#32) (ix1 r)) (d (ix1 r)) = _
  rw [broadcastInDim_apply _ bcast_S_S100000 _ (ix1 r) ix0 (fun a => a.elim0)]
  show Ideal.div (Ideal.ofBits .f32 0x3F800000#32) (d (ix1 r)) = _
  rw [Cert.MeanLinear.one_word]

/-- The row at `(0, q)` is the vector at `q`. -/
theorem biasRow_apply (b : S128.Idx → EReal) (z : Fin 1) (q : Fin 128) : biasRow b (ix2 z q) = b (ix1 q) := by
  unfold biasRow
  exact shapeCast_apply b shapeCasts_S128_S1x128 (ix2 z q) (ix1 q) (by
    rewrite [Shape.rowMajor_val_one, Shape.rowMajor_val_two]
    have hz : z.val < 1 := z.isLt
    show q.val = z.val * 128 + q.val
    omega)

end Cert.KernelIdeal.NodeArrays

end
-- ==== Proof.LayerBlocks.lean ====
/-
  From the blocks to the array: after the run the result array is the layer of `MeanLinear`, of the argument arrays.

  The grid has 25 points; point `t` works on rows `4000·t … 4000·t + 3999`. There it reads the block of the neighbour
  sums, of the features and of the reciprocal column at those rows, the two weight matrices and the bias row whole,
  and writes back the block of the result at those rows. So entry `(p, q)` of what point `t` writes back is the stored
  value of `BlockValue` with every block entry replaced by the array entry it is a copy of, which is the layer's
  reciprocal arrangement at row `4000·t + p`, column `q`, and hence the layer there (the divisor, a clamped degree,
  is never zero). Every row lies in exactly the block of point `row / 4000`, so the 25 blocks cover the array.
-/
import proofs.«177822_j79937931313499_2_alg».proof.Proof.Gen.KernelIdeal.Value
import proofs.«177822_j79937931313499_2_alg».proof.Proof.BlockValue
import proofs.«177822_j79937931313499_2_alg».proof.Proof.NodeArrays
import proofs.«177822_j79937931313499_2_alg».proof.Proof.ReferenceLayer
import proofs.«177822_j79937931313499_2_alg».proof.Proof.MeanLinear
import Idealize.ShloMosaic.Lib.Pipeline.Value

noncomputable section

open scoped BigOperators

namespace Cert.KernelIdeal.LayerBlocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## One block, over plain vectors -/

/-- Row `p` of block `n` as a row of the array. -/
def rowOf (n : Nat) (hn : n < 25) (p : Fin 4000) : Fin 100000 := ⟨n * 4000 + p.val, by have := p.isLt; omega⟩

/-- If the six loaded blocks are copies of the arrays' entries at block `n` — the neighbour sums, features and
    reciprocals at rows `4000·n + p`, the matrices and the bias whole — then the stored block is the layer at those rows. -/
theorem block_layer (a x : Vec Ideal S4000x128 .f32) (e : Vec Ideal S4000x1 .f32) (Wl Wr : Vec Ideal S128x128 .f32)
    (b : Vec Ideal S1x128 .f32)
    (A X : S100000x128.Idx → EReal) (dd : S100000.Idx → EReal) (WL WR : S128x128.Idx → EReal) (B : S128.Idx → EReal)
    (hd : ∀ r, dd r ≠ 0) (n : Nat) (hn : n < 25)
    (ha : ∀ (p : Fin 4000) (k : Fin 128), a (ix2 p k) = A (ix2 (rowOf n hn p) k))
    (hx : ∀ (p : Fin 4000) (k : Fin 128), x (ix2 p k) = X (ix2 (rowOf n hn p) k))
    (he : ∀ p : Fin 4000, e (ix2 p (0 : Fin 1)) = Ideal.div 1 (dd (ix1 (rowOf n hn p))))
    (hWl : ∀ q k : Fin 128, Wl (ix2 q k) = WL (ix2 q k)) (hWr : ∀ q k : Fin 128, Wr (ix2 q k) = WR (ix2 q k))
    (hb : ∀ q : Fin 128, b (ix2 (0 : Fin 1) q) = B (ix1 q)) (p : Fin 4000) (q : Fin 128) :
    k0_pay1 (F := Ideal) a e x Wl Wr b (ix2 p q) = Cert.MeanLinear.layer A X dd WL WR B (ix2 (rowOf n hn p) q) := by
  rw [Cert.KernelIdeal.BlockValue.stored_apply]
  simp only [ha, hx, he, hWl, hWr, hb]
  exact Cert.MeanLinear.reciprocal_form A X dd WL WR B hd (rowOf n hn p) q

/-! ## The printed index maps -/

theorem hz : (![0, 0] : Fin 2 → Nat) = fun _ => 0 := funext fun a => by fin_cases a <;> rfl

/-- Decided over the 25 points: the three row-blocked inputs and the output are at block `(t, 0)`, the matrices and the
    bias row at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt_25 (t : Fin cfg0.N) : t.val < 25 := by
  have hN : cfg0.N = 25 := N_0
  have := t.isLt
  omega

/-! ## A window's block, for any contents of its array

Each lemma reads a block of an ARBITRARY array `f`: entry `(p, k)` of the block of point `t` is `f` at the block index
times the block size plus the coordinate, on each axis. -/

/-- The neighbour-sum window: rows `4000·t + p`. -/
theorem rows_of_block0 (t : Fin cfg0.N) (f : S100000x128.Idx → EReal) (p : Fin 4000) (k : Fin 128) :
    ((cfg0.win 0).blk t).view.read (Elt Ideal) f (ix2 p k) = f (ix2 (rowOf t.val (lt_25 t) p) k) := by
  obtain ⟨e0, e1, -⟩ := idx_facts t
  show f (((cfg0.win 0).blk t).view.emb (ix2 p k)) = f _
  refine congrArg f (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- The feature window: rows `4000·t + p`. -/
theorem rows_of_block1 (t : Fin cfg0.N) (f : S100000x128.Idx → EReal) (p : Fin 4000) (k : Fin 128) :
    ((cfg0.win 1).blk t).view.read (Elt Ideal) f (ix2 p k) = f (ix2 (rowOf t.val (lt_25 t) p) k) := by
  obtain ⟨-, -, e0, e1, -⟩ := idx_facts t
  show f (((cfg0.win 1).blk t).view.emb (ix2 p k)) = f _
  refine congrArg f (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 128 + 1 * k.val = k.val; rw [e1]; omega

/-- The reciprocal-column window: rows `4000·t + p` of a one-column array. -/
theorem rows_of_block2 (t : Fin cfg0.N) (f : S100000x1.Idx → EReal) (p : Fin 4000) :
    ((cfg0.win 2).blk t).view.read (Elt Ideal) f (ix2 p (0 : Fin 1)) = f (ix2 (rowOf t.val (lt_25 t) p) (0 : Fin 1)) := by
  obtain ⟨-, -, -, -, e0, e1, -⟩ := idx_facts t
  show f (((cfg0.win 2).blk t).view.emb (ix2 p (0 : Fin 1))) = f _
  refine congrArg f (funext fun a => Fin.ext ?_)
  match a with
  | ⟨0, _⟩ => show win0_2.index t (0 : Fin 2) * 4000 + 1 * p.val = t.val * 4000 + p.val; rw [e0]; omega
  | ⟨1, _⟩ => show win0_2.index t (1 : Fin 2) * 1 + 1 * 0 = 0; rw [e1]

/-- The first weight matrix's window is the whole matrix at every point. -/
theorem whole_block3 (t : Fin cfg0.N) (f : S128x128.Idx → EReal) (q k : Fin 128) :
    ((cfg0.win 3).blk t).view.read (Elt Ideal) f (ix2 q k) = f (ix2 q k) := by
  obtain ⟨-, -, -, -, -, -, e0, e1, -⟩ := idx_facts t
  show f (((cfg0.win 3).blk t).view.emb (ix2 q k)) = f _
  refine congrArg f (funext fun a => Fin.ext ?_)
  match a with
  | ⟨0, _⟩ => show win0_3.index t (0 : Fin 2) * 128 + 1 * q.val = q.val; rw [e0]; omega
  | ⟨1, _⟩ => show win0_3.index t (1 : Fin 2) * 128 + 1 * k.val = k.val; rw [e1]; omega

/-- The second weight matrix's window is the whole matrix at every point. -/
theorem whole_block4 (t : Fin cfg0.N) (f : S128x128.Idx → EReal) (q k : Fin 128) :
    ((cfg0.win 4).blk t).view.read (Elt Ideal) f (ix2 q k) = f (ix2 q k) := by
  obtain ⟨-, -, -, -, -, -, -, -, e0, e1, -⟩ := idx_facts t
  show f (((cfg0.win 4).blk t).view.emb (ix2 q k)) = f _
  refine congrArg f (funext fun a => Fin.ext ?_)
  match a with
  | ⟨0, _⟩ => show win0_4.index t (0 : Fin 2) * 128 + 1 * q.val = q.val; rw [e0]; omega
  | ⟨1, _⟩ => show win0_4.index t (1 : Fin 2) * 128 + 1 * k.val = k.val; rw [e1]; omega

/-- The bias row's window is the whole row at every point. -/
theorem whole_block5 (t : Fin cfg0.N) (f : S1x128.Idx → EReal) (q : Fin 128) :
    ((cfg0.win 5).blk t).view.read (Elt Ideal) f (ix2 (0 : Fin 1) q) = f (ix2 (0 : Fin 1) q) := by
  obtain ⟨-, -, -, -, -, -, -, -, -, -, e0, e1, -⟩ := idx_facts t
  show f (((cfg0.win 5).blk t).view.emb (ix2 (0 : Fin 1) q)) = f _
  refine congrArg f (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- The result window written back: if a stored block agrees entry by entry with rows `4000·t + p` of an array `R`, what
    the window writes back of it is block `t` of `R`. -/
theorem written_block6 (t : Fin cfg0.N) (g : Vec Ideal S4000x128 .f32) (R : S100000x128.Idx → EReal)
    (h : ∀ (p : Fin 4000) (q : Fin 128), g (ix2 p q) = R (ix2 (rowOf t.val (lt_25 t) p) q)) :
    (cfg0.win 6).cut (grid0.coords t) g = ((cfg0.win 6).blk t).view.read (Elt Ideal) R := by
  obtain ⟨-, -, -, -, -, -, -, -, -, -, -, -, e0, e1⟩ := idx_facts t
  funext j
  show g j = R (((cfg0.win 6).blk t).view.emb j)
  have hj : g j = g (ix2 (j 0) (j 1)) := congrArg g (eq_ix2 j)
  rw [hj, h (j 0) (j 1)]
  refine congrArg R (funext fun a => Fin.ext ?_)
  match a with
  | ⟨0, _⟩ => show t.val * 4000 + (j 0).val = win0_6.index t (0 : Fin 2) * 4000 + 1 * (j 0).val; rw [e0]; omega
  | ⟨1, _⟩ => show (j 1).val = win0_6.index t (1 : Fin 2) * 128 + 1 * (j 1).val; rw [e1]; omega

/-! ## The input blocks as entries of the arrays the region finds -/

/-- The neighbour-sum block at point `t`. -/
theorem sums_block (c : Dev nD) (t : Fin cfg0.N) (p : Fin 4000) (k : Fin 128) :
    (iblk m c 0 t : Vec Ideal S4000x128 .f32) (ix2 p k)
      = Cert.ReferenceIdeal.Read.val_main_v13 (F := Ideal) (m ((c : Thread nD τ).loc main_arg0)) (m ((c : Thread nD τ).loc main_arg1))
          (ix2 (rowOf t.val (lt_25 t) p) k) :=
  (rows_of_block0 t (V m c (Pipeline.arrRef spec0 0)) p k).trans (congrFun (Cert.KernelIdeal.NodeArrays.V_sums m c) _)

/-- The feature block at point `t`. -/
theorem feats_block (c : Dev nD) (t : Fin cfg0.N) (p : Fin 4000) (k : Fin 128) :
    (iblk m c 1 t : Vec Ideal S4000x128 .f32) (ix2 p k)
      = (m ((c : Thread nD τ).loc main_arg0) : S100000x128.Idx → EReal) (ix2 (rowOf t.val (lt_25 t) p) k) :=
  have hV : (V m c main_arg0 : S100000x128.Idx → EReal) = m ((c : Thread nD τ).loc main_arg0) := V_main_arg0 m c
  (rows_of_block1 t (V m c (Pipeline.arrRef spec0 1)) p k).trans (congrFun hV _)

/-- The reciprocal-column block at point `t`. -/
theorem recip_block (c : Dev nD) (t : Fin cfg0.N) (p : Fin 4000) :
    (iblk m c 2 t : Vec Ideal S4000x1 .f32) (ix2 p (0 : Fin 1))
      = Ideal.div 1 (Cert.ReferenceIdeal.Read.val_main_v19 (F := Ideal) (m ((c : Thread nD τ).loc main_arg1)) (ix1 (rowOf t.val (lt_25 t) p))) :=
  ((rows_of_block2 t (V m c (Pipeline.arrRef spec0 2)) p).trans (congrFun (Cert.KernelIdeal.NodeArrays.V_recip m c) _)).trans
    (Cert.KernelIdeal.NodeArrays.recipColumn_apply _ (rowOf t.val (lt_25 t) p) (0 : Fin 1))

/-- The first weight matrix, whole, at every point. -/
theorem wl_block (c : Dev nD) (t : Fin cfg0.N) (q k : Fin 128) :
    (iblk m c 3 t : Vec Ideal S128x128 .f32) (ix2 q k) = (m ((c : Thread nD τ).loc main_arg2) : S128x128.Idx → EReal) (ix2 q k) :=
  have hV : (V m c main_arg2 : S128x128.Idx → EReal) = m ((c : Thread nD τ).loc main_arg2) := V_main_arg2 m c
  (whole_block3 t (V m c (Pipeline.arrRef spec0 3)) q k).trans (congrFun hV _)

/-- The second weight matrix, whole, at every point. -/
theorem wr_block (c : Dev nD) (t : Fin cfg0.N) (q k : Fin 128) :
    (iblk m c 4 t : Vec Ideal S128x128 .f32) (ix2 q k) = (m ((c : Thread nD τ).loc main_arg4) : S128x128.Idx → EReal) (ix2 q k) :=
  have hV : (V m c main_arg4 : S128x128.Idx → EReal) = m ((c : Thread nD τ).loc main_arg4) := V_main_arg4 m c
  (whole_block4 t (V m c (Pipeline.arrRef spec0 4)) q k).trans (congrFun hV _)

/-- The bias row, whole, at every point. -/
theorem bias_block (c : Dev nD) (t : Fin cfg0.N) (q : Fin 128) :
    (iblk m c 5 t : Vec Ideal S1x128 .f32) (ix2 (0 : Fin 1) q) = (m ((c : Thread nD τ).loc main_arg3) : S128.Idx → EReal) (ix1 q) :=
  ((whole_block5 t (V m c (Pipeline.arrRef spec0 5)) q).trans (congrFun (Cert.KernelIdeal.NodeArrays.V_bias m c) _)).trans
    (Cert.KernelIdeal.NodeArrays.biasRow_apply _ (0 : Fin 1) q)

/-! ## The result array -/

/-- The layer of the argument arrays: the neighbour sums and clamped degrees are the reference's stages of them. -/
def result (c : Dev nD) : S100000x128.Idx → EReal :=
  Cert.MeanLinear.layer
    (Cert.ReferenceIdeal.Read.val_main_v13 (F := Ideal) (m ((c : Thread nD τ).loc main_arg0)) (m ((c : Thread nD τ).loc main_arg1)))
    (m ((c : Thread nD τ).loc main_arg0))
    (Cert.ReferenceIdeal.Read.val_main_v19 (F := Ideal) (m ((c : Thread nD τ).loc main_arg1)))
    (m ((c : Thread nD τ).loc main_arg2)) (m ((c : Thread nD τ).loc main_arg4)) (m ((c : Thread nD τ).loc main_arg3))

/-- The stored block of point `t` at `(p, q)` is the result at row `4000·t + p`, column `q`. -/
theorem stored_is_result (c : Dev nD) (t : Fin cfg0.N) (p : Fin 4000) (q : Fin 128) :
    k0_pay1 (F := Ideal) (iblk m c 0 t) (iblk m c 2 t) (iblk m c 1 t) (iblk m c 3 t) (iblk m c 4 t) (iblk m c 5 t) (ix2 p q)
      = result m c (ix2 (rowOf t.val (lt_25 t) p) q) :=
  block_layer (iblk m c 0 t) (iblk m c 1 t) (iblk m c 2 t) (iblk m c 3 t) (iblk m c 4 t) (iblk m c 5 t) _ _ _ _ _ _
    (Cert.ReferenceIdeal.Layer.clamped_ne_zero _) t.val (lt_25 t)
    (sums_block m c t) (feats_block m c t) (recip_block m c t) (wl_block m c t) (wr_block m c t) (bias_block m c t) p q

/-- WHAT POINT `t` WRITES BACK is block `t` of the result. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S4000x128) hz, View.ld_unit_zero (S := S4000x1) hz, View.ld_unit_zero (S := S128x128) hz,
    View.ld_unit_zero (S := S1x128) hz]
  exact written_block6 t _ (result m c) (stored_is_result m c t)

/-- An index of the array is in point `t`'s block iff each coordinate is in the block's range on its axis. -/
theorem mem_blk (t : Fin cfg0.N) (i : S100000x128.Idx) :
    i ∈ ((cfg0.win 6).blk t).view.set
      ↔ ∀ a : Fin 2, win0_6.index t a * S4000x128.size a ≤ (i a).val ∧ (i a).val < win0_6.index t a * S4000x128.size a + S4000x128.size a := by
  show i ∈ ((View.whole main_v24).slice (win0_6.rect t)).set ↔ _
  rw [View.set_slice_whole, Rect.mem_set_unit]
  exact Iff.rfl

/-- Every index of the array is in the block of the point its row divided by 4000 names. -/
theorem cover (i : S100000x128.Idx) : ∃ t : Fin cfg0.N, (cfg0.win 6).flush t = true ∧ i ∈ ((cfg0.win 6).blk t).view.set := by
  have hN : cfg0.N = 25 := N_0
  have hi0 : (i 0).val < 100000 := (i 0).isLt
  have hi1 : (i 1).val < 128 := (i 1).isLt
  obtain ⟨t, ht⟩ : ∃ t : Fin cfg0.N, t.val = (i 0).val / 4000 := ⟨⟨(i 0).val / 4000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    rw [e0, ht]; omega
  | ⟨1, _⟩ =>
    show win0_6.index t (1 : Fin 2) * 128 ≤ (i 1).val ∧ (i 1).val < win0_6.index t (1 : Fin 2) * 128 + 128
    rw [e1]; omega

/-- THE ARRAY after the run is the result. -/
theorem final (c : Dev nD) : (dats m 0 c).arrAt 6 cfg0.N = result m c :=
  (dats m 0 c).arrAt_eq_of_cover 6 (result m c) (fun t _ => flushed_eq m c t) cover

/-- The run, read: the result array at the layer of the argument arrays, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.LayerBlocks

end
-- ==== Proof.lean ====
/-
  A mean-aggregation graph layer, computed two ways, is one function on the extended reals.

  Both programs gather the source features of every edge, sum them per destination node (`a`, [100000, 128]), count
  the edges per destination node and clamp the count below by one (`d`, [100000]). The reference then forms

      out r q = (∑ k, (a r k / d r) · Wl q k  +  b q)  +  ∑ k, x r k · Wr q k ,

  dividing every neighbour sum by its node's clamped degree before the first matrix product. The kernel takes the
  reciprocal `1 / d r` once per node on the host and, in 25 blocks of 4000 rows, multiplies the neighbour sums by it,
  contracts them and the features against the two weight matrices along the second axis of both operands, adds the two
  products and adds the bias last:

      out r q = (∑ k, (a r k · (1 / d r)) · Wl q k  +  ∑ k, x r k · Wr q k)  +  b q .

  The divisor `d r` is a maximum against one, hence never zero, and off a zero divisor the quotient of the extended
  reals is the product with the inverse: `a · (1 / d) = a · d⁻¹ = a / d` for every `a`. The two sums then agree term by
  term, and moving the bias past the second product is commutativity and associativity of addition. No finiteness of
  the inputs is needed, the gather and the two per-node sums are never opened (they are the same operations of the same
  arguments in both programs), and the narrowing of the matrix operands to bf16 is the identity on extended reals.

  `MeanLinear` states the layer and that law; `ReferenceLayer` reads the reference's result as the layer; `BlockValue`
  reads what the kernel body stores at an entry of a block; `NodeArrays` reads the arrays the host operations hand to the
  kernel; `LayerBlocks` puts the 25 blocks together. Here the three runs, the (empty) list of idealization steps, and the
  comparison are assembled.
-/
import proofs.«177822_j79937931313499_2_alg».proof.Defs
import proofs.«177822_j79937931313499_2_alg».proof.Proof.Gen.Kernel
import proofs.«177822_j79937931313499_2_alg».proof.Proof.Gen.Kernel.Skeleton
import proofs.«177822_j79937931313499_2_alg».proof.Proof.Gen.Kernel.Launch
import proofs.«177822_j79937931313499_2_alg».proof.Proof.Gen.Kernel.Points
import proofs.«177822_j79937931313499_2_alg».proof.Proof.Gen.Kernel.Frame
import proofs.«177822_j79937931313499_2_alg».proof.Proof.Gen.KernelIdeal
import proofs.«177822_j79937931313499_2_alg».proof.Proof.Gen.KernelIdeal.Skeleton
import proofs.«177822_j79937931313499_2_alg».proof.Proof.Gen.KernelIdeal.Launch
import proofs.«177822_j79937931313499_2_alg».proof.Proof.Gen.KernelIdeal.Points
import proofs.«177822_j79937931313499_2_alg».proof.Proof.Gen.KernelIdeal.Frame
import proofs.«177822_j79937931313499_2_alg».proof.Proof.Gen.ReferenceIdeal
import proofs.«177822_j79937931313499_2_alg».proof.Proof.Gen.Pre_finite_inputs
import proofs.«177822_j79937931313499_2_alg».proof.Proof.Gen.KernelIdeal.Value
import proofs.«177822_j79937931313499_2_alg».proof.Proof.Gen.ReferenceIdeal.Run
import proofs.«177822_j79937931313499_2_alg».proof.Proof.Gen.ReferenceIdeal.Read
import proofs.«177822_j79937931313499_2_alg».proof.Proof.ReferenceLayer
import proofs.«177822_j79937931313499_2_alg».proof.Proof.LayerBlocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments as they were: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals, so there is nothing to preserve. -/
theorem preserves : Cert.preserves_Kernel_KernelIdeal := trivial

/-- From arguments that agree, the kernel's result array ends at the layer of its arguments (`LayerBlocks.run`) and the
    reference's at its own last stage, which is the layer of the same arguments (`Layer.result_eq`). -/
theorem algebraic : Cert.algebraic_KernelIdeal_ReferenceIdeal := by
  intro m ρ m' ρ' _ hagree
  refine ⟨fun c => Cert.KernelIdeal.LayerBlocks.result m c, Cert.KernelIdeal.LayerBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.Layer.result_eq,
    (hagree c).1, (hagree c).2.1, (hagree c).2.2.1, (hagree c).2.2.2.1, (hagree c).2.2.2.2]
  unfold Cert.KernelIdeal.LayerBlocks.result
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
